-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2097152 : Shape := ⟨2, ![16, 2097152]⟩
abbrev S1024 : Shape := ⟨1, ![1024]⟩
abbrev S_ : Shape := ⟨0, ![]⟩

class Facts : Prop where
  bcast_S_S16x2097152 : S_.BroadcastsInDim S16x2097152 (![] : Fin 0 → Fin S16x2097152.rank)
  reducesTo_S16x2097152_S_d0_1 : S16x2097152.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16x2097152 .f32) (main_arg1 : FVec F S1024 .f32) : IVec S_ 1 :=
  let main_v0 : FVec F S16x2097152 .f32 := Host.absf main_arg0
  let main_cst : FVec F S_ .f32 := constant S_ .f32 0x7F800000#32
  let main_v1 : FVec F S16x2097152 .f32 := broadcastInDim S16x2097152 ![] bcast_S_S16x2097152 main_cst
  let main_v2 : IVec S16x2097152 1 := cmpf .olt main_v0 main_v1
  let main_c : IVec S_ 1 := constantI S_ 1 1#1
  let main_v3 : IVec S_ 1 := (fun x v => Host.reduce IntOp.andi x v reducesTo_S16x2097152_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S16x2097152 : Shape := ⟨2, ![16, 2097152]⟩
abbrev S1024 : Shape := ⟨1, ![1024]⟩
abbrev S_ : Shape := ⟨0, ![]⟩
abbrev S512 : Shape := ⟨1, ![512]⟩
abbrev S1x512 : Shape := ⟨2, ![1, 512]⟩
abbrev S4092x512 : Shape := ⟨2, ![4092, 512]⟩
abbrev S2095104 : Shape := ⟨1, ![2095104]⟩
abbrev S2097152 : Shape := ⟨1, ![2097152]⟩
abbrev S1x2097152 : Shape := ⟨2, ![1, 2097152]⟩
abbrev S16x131072 : Shape := ⟨2, ![16, 131072]⟩
abbrev S1x131072 : Shape := ⟨2, ![1, 131072]⟩

abbrev nBuf : Space → Nat
  | .hbm => 33
  | .vmem => 6
  | .smem => 0
  | _ => 0

abbrev bufTy : (tb : Table) → Fin (tcTables nBuf tb) → BufTy
  | .hbm, ⟨0, _⟩ => ⟨S16x2097152, .f32⟩
  | .hbm, ⟨1, _⟩ => ⟨S1024, .f32⟩
  | .hbm, ⟨2, _⟩ => ⟨S_, .f32⟩
  | .hbm, ⟨3, _⟩ => ⟨S512, .f32⟩
  | .hbm, ⟨4, _⟩ => ⟨S512, .f32⟩
  | .hbm, ⟨5, _⟩ => ⟨S1024, .f32⟩
  | .hbm, ⟨6, _⟩ => ⟨S1024, .f32⟩
  | .hbm, ⟨7, _⟩ => ⟨S512, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S1x512, .f32⟩
  | .hbm, ⟨24, _⟩ => ⟨S4092x512, .f32⟩
  | .hbm, ⟨25, _⟩ => ⟨S2095104, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S2097152, .f32⟩
  | .hbm, ⟨31, _⟩ => ⟨S1x2097152, .f32⟩
  | .hbm, ⟨32, _⟩ => ⟨S16x2097152, .f32⟩
  | .local _ .vmem, ⟨0, _⟩ => ⟨S16x131072, .f32⟩
  | .local _ .vmem, ⟨1, _⟩ => ⟨S16x131072, .f32⟩
  | .local _ .vmem, ⟨2, _⟩ => ⟨S1x131072, .f32⟩
  | .local _ .vmem, ⟨3, _⟩ => ⟨S1x131072, .f32⟩
  | .local _ .vmem, ⟨4, _⟩ => ⟨S16x131072, .f32⟩
  | .local _ .vmem, ⟨5, _⟩ => ⟨S16x131072, .f32⟩
  | _, _ => ⟨S16x2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S512 : S_.BroadcastsInDim S512 (![] : Fin 0 → Fin S512.rank)
  slices_S1024_S512_512 : S1024.Slices ![512] S512
  concatenates_S512_S512_S1024_d0 : Shape.Concatenates [S512, S512] S1024 0
  slices_S1024_S512_0 : S1024.Slices ![0] S512
  shapeCasts_S512_S1x512 : S512.ShapeCasts S1x512
  bcast_S1x512_S4092x512_0_1 : S1x512.BroadcastsInDim S4092x512 (![0, 1] : Fin 2 → Fin S4092x512.rank)
  shapeCasts_S4092x512_S2095104 : S4092x512.ShapeCasts S2095104
  concatenates_S512_S512_S2095104_S512_S512_S2097152_d0 : Shape.Concatenates [S512, S512, S2095104, S512, S512] S2097152 0
  shapeCasts_S2097152_S1x2097152 : S2097152.ShapeCasts S1x2097152
  inb_S16x131072_S16x131072_0_0 : ∀ a, (![0, 0] : Fin 2 → Nat) a + S16x131072.size a ≤ S16x131072.size a
  h_S16x131072 : 0 < S16x131072.numel
  inb_S1x131072_S1x131072_0_0 : ∀ a, (![0, 0] : Fin 2 → Nat) a + S1x131072.size a ≤ S1x131072.size a
  h_S1x131072 : 0 < S1x131072.numel
  shapeCasts_S1x131072_S1x131072 : S1x131072.ShapeCasts S1x131072
  broadcasts_S1x131072_S16x131072 : S1x131072.Broadcasts S16x131072
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x131072.size a ≤ S16x2097152.size a
  hwx0_0 : ∀ i : grid0.Coords, EltTy.bits .f32 = 32 ∨ (Rect.block (s := S16x2097152) S16x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x131072.size a ≤ S1x2097152.size a
  hwx0_1 : ∀ i : grid0.Coords, EltTy.bits .f32 = 32 ∨ (Rect.block (s := S1x2097152) S1x131072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x131072.size a ≤ S16x2097152.size a
  hwx0_2 : ∀ i : grid0.Coords, EltTy.bits .f32 = 32 ∨ (Rect.block (s := S16x2097152) S16x131072.size (cc0_transform_2 i) (hinb0_2 i)).WholeWords (EltTy.packing .f32)

variable [Facts₀]

abbrev win0_0 : Pipeline.Window sig grid0 :=
  Pipeline.Window.ofSpec (Memref.whole main_arg0) S16x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S16x131072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2097152 : Shape := ⟨2, ![16, 2097152]⟩
abbrev S1024 : Shape := ⟨1, ![1024]⟩
abbrev S_ : Shape := ⟨0, ![]⟩
abbrev S512 : Shape := ⟨1, ![512]⟩
abbrev S1x1024 : Shape := ⟨2, ![1, 1024]⟩
abbrev S4093x1024 : Shape := ⟨2, ![4093, 1024]⟩
abbrev S4095x1024 : Shape := ⟨2, ![4095, 1024]⟩
abbrev S4095 : Shape := ⟨1, ![4095]⟩
abbrev S4095x1 : Shape := ⟨2, ![4095, 1]⟩
abbrev S4095x1024x1 : Shape := ⟨3, ![4095, 1024, 1]⟩
abbrev S16x4095x1024 : Shape := ⟨3, ![16, 4095, 1024]⟩
abbrev S1x4095x1024 : Shape := ⟨3, ![1, 4095, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16x2097152, .f32⟩
  | .hbm, ⟨1, _⟩ => ⟨S1024, .f32⟩
  | .hbm, ⟨2, _⟩ => ⟨S_, .f32⟩
  | .hbm, ⟨3, _⟩ => ⟨S512, .f32⟩
  | .hbm, ⟨4, _⟩ => ⟨S512, .f32⟩
  | .hbm, ⟨5, _⟩ => ⟨S1024, .f32⟩
  | .hbm, ⟨6, _⟩ => ⟨S1024, .f32⟩
  | .hbm, ⟨7, _⟩ => ⟨S512, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S4093x1024, .f32⟩
  | .hbm, ⟨15, _⟩ => ⟨S1x1024, .f32⟩
  | .hbm, ⟨16, _⟩ => ⟨S4095x1024, .f32⟩
  | .hbm, ⟨17, _⟩ => ⟨S4095, .i32⟩
  | .hbm, ⟨18, _⟩ => ⟨S4095x1, .i32⟩
  | .hbm, ⟨19, _⟩ => ⟨S_, .i32⟩
  | .hbm, ⟨20, _⟩ => ⟨S4095x1, .i32⟩
  | .hbm, ⟨21, _⟩ => ⟨S4095x1, .i32⟩
  | .hbm, ⟨22, _⟩ => ⟨S1024, .i32⟩
  | .hbm, ⟨23, _⟩ => ⟨S1x1024, .i32⟩
  | .hbm, ⟨24, _⟩ => ⟨S4095x1024, .i32⟩
  | .hbm, ⟨25, _⟩ => ⟨S4095x1024, .i32⟩
  | .hbm, ⟨26, _⟩ => ⟨S4095x1024, .i32⟩
  | .hbm, ⟨27, _⟩ => ⟨S_, .i32⟩
  | .hbm, ⟨28, _⟩ => ⟨S4095x1024, .i32⟩
  | .hbm, ⟨29, _⟩ => ⟨S4095x1024, .i1⟩
  | .hbm, ⟨30, _⟩ => ⟨S_, .i32⟩
  | .hbm, ⟨31, _⟩ => ⟨S4095x1024, .i32⟩
  | .hbm, ⟨32, _⟩ => ⟨S4095x1024, .i32⟩
  | .hbm, ⟨33, _⟩ => ⟨S4095x1024, .i32⟩
  | .hbm, ⟨34, _⟩ => ⟨S4095x1024x1, .i32⟩
  | .hbm, ⟨35, _⟩ => ⟨S16x4095x1024, .f32⟩
  | .hbm, ⟨36, _⟩ => ⟨S1x4095x1024, .f32⟩
  | .hbm, ⟨37, _⟩ => ⟨S16x4095x1024, .f32⟩
  | .hbm, ⟨38, _⟩ => ⟨S16x4095x1024, .f32⟩
  | .hbm, ⟨39, _⟩ => ⟨S_, .f32⟩
  | .hbm, ⟨40, _⟩ => ⟨S16x2097152, .f32⟩
  | .hbm, ⟨41, _⟩ => ⟨S1x4095x1024, .f32⟩
  | .hbm, ⟨42, _⟩ => ⟨S16x4095x1024, .f32⟩
  | .hbm, ⟨43, _⟩ => ⟨S16x4095x1024, .f32⟩
  | .hbm, ⟨44, _⟩ => ⟨S_, .i32⟩
  | .hbm, ⟨45, _⟩ => ⟨S4095x1024, .i32⟩
  | .hbm, ⟨46, _⟩ => ⟨S4095x1024, .i1⟩
  | .hbm, ⟨47, _⟩ => ⟨S_, .i32⟩
  | .hbm, ⟨48, _⟩ => ⟨S4095x1024, .i32⟩
  | .hbm, ⟨49, _⟩ => ⟨S4095x1024, .i32⟩
  | .hbm, ⟨50, _⟩ => ⟨S4095x1024, .i32⟩
  | .hbm, ⟨51, _⟩ => ⟨S4095x1024x1, .i32⟩
  | .hbm, ⟨52, _⟩ => ⟨S16x2097152, .f32⟩
  | _, _ => ⟨S16x2097152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c_0 : Ref sig .tc := ⟨.hbm, 27, rfl⟩
abbrev main_v23 : Ref sig .tc := ⟨.hbm, 28, rfl⟩
abbrev main_v24 : Ref sig .tc := ⟨.hbm, 29, rfl⟩
abbrev main_c_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_3 : Ref sig .tc := ⟨.hbm, 44, rfl⟩
abbrev main_v37 : Ref sig .tc := ⟨.hbm, 45, rfl⟩
abbrev main_v38 : Ref sig .tc := ⟨.hbm, 46, rfl⟩
abbrev main_c_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]

class Facts₀ : Prop where
  bcast_S_S512 : S_.BroadcastsInDim S512 (![] : Fin 0 → Fin S512.rank)
  slices_S1024_S512_512 : S1024.Slices ![512] S512
  concatenates_S512_S512_S1024_d0 : Shape.Concatenates [S512, S512] S1024 0
  slices_S1024_S512_0 : S1024.Slices ![0] S512
  bcast_S1024_S1x1024_1 : S1024.BroadcastsInDim S1x1024 (![1] : Fin 1 → Fin S1x1024.rank)
  bcast_S1024_S4093x1024_1 : S1024.BroadcastsInDim S4093x1024 (![1] : Fin 1 → Fin S4093x1024.rank)
  concatenates_S1x1024_S4093x1024_S1x1024_S4095x1024_d0 : Shape.Concatenates [S1x1024, S4093x1024, S1x1024] S4095x1024 0
  bcast_S4095_S4095x1_0 : S4095.BroadcastsInDim S4095x1 (![0] : Fin 1 → Fin S4095x1.rank)
  bcast_S_S4095x1 : S_.BroadcastsInDim S4095x1 (![] : Fin 0 → Fin S4095x1.rank)
  bcast_S4095x1_S4095x1024_0_1 : S4095x1.BroadcastsInDim S4095x1024 (![0, 1] : Fin 2 → Fin S4095x1024.rank)
  bcast_S1x1024_S4095x1024_0_1 : S1x1024.BroadcastsInDim S4095x1024 (![0, 1] : Fin 2 → Fin S4095x1024.rank)
  bcast_S_S4095x1024 : S_.BroadcastsInDim S4095x1024 (![] : Fin 0 → Fin S4095x1024.rank)
  bcast_S4095x1024_S4095x1024x1_0_1 : S4095x1024.BroadcastsInDim S4095x1024x1 (![0, 1] : Fin 2 → Fin S4095x1024x1.rank)
  bcast_S4095x1024_S1x4095x1024_1_2 : S4095x1024.BroadcastsInDim S1x4095x1024 (![1, 2] : Fin 2 → Fin S1x4095x1024.rank)
  bcast_S1x4095x1024_S16x4095x1024_0_1_2 : S1x4095x1024.BroadcastsInDim S16x4095x1024 (![0, 1, 2] : Fin 3 → Fin S16x4095x1024.rank)
  bcast_S_S16x2097152 : S_.BroadcastsInDim S16x2097152 (![] : Fin 0 → Fin S16x2097152.rank)
  gather_S16x2097152_S4095x1024x1_S16x4095x1024_0_1_n_n_1_2_161_wf : GatherDims.WF S16x2097152 S4095x1024x1 S16x4095x1024 [0] [1] [] [1] [] 2 ![16, 1]
  scatter_S16x2097152_S4095x1024x1_S16x4095x1024_0_1_1_2_wf : ScatterDims.WF S16x2097152 S4095x1024x1 S16x4095x1024 [0] [1] [1] 2

variable [Facts₀]

def gather_S16x2097152_S4095x1024x1_S16x4095x1024_0_1_n_n_1_2_161 : GatherDims S16x2097152 S4095x1024x1 S16x4095x1024 where
  offsetDims := [0]
  collapsedSliceDims := [1]
  operandBatchingDims := []
  startIndicesBatchingDims := []
  startIndexMap := [1]
  indexVectorDim := 2
  sliceSizes := ![16, 1]
  wf := gather_S16x2097152_S4095x1024x1_S16x4095x1024_0_1_n_n_1_2_161_wf
def scatter_S16x2097152_S4095x1024x1_S16x4095x1024_0_1_1_2 : ScatterDims S16x2097152 S4095x1024x1 S16x4095x1024 where
  updateWindowDims := [0]
  insertedWindowDims := [1]
  scatterDimsToOperandDims := [1]
  indexVectorDim := 2
  wf := scatter_S16x2097152_S4095x1024x1_S16x4095x1024_0_1_1_2_wf

class Facts : Prop extends Facts₀ where

variable [Facts]
-- ==== Proof.OverlapAdd.lean ====
/-
  The mathematics both programs compute, stated once and over no program.

  A window `w` of 1024 taps frames a signal of 2097152 samples into 4095 frames of 1024 samples at hop 512: frame `k` takes
  the samples `512·k + s`, `s < 1024`, each multiplied by the frame's window at `s`; the frames are multiplied by the same
  window again and added back at their positions. The first frame's window is the square root of the window plus its upper
  half shifted down (`preWin`), the last frame's the square root of the window plus its lower half shifted up (`postWin`),
  every other frame's the square root of the window itself (`midWin`). Sample `n` lies in frame `n / 512` at `n % 512`
  (when that frame exists) and in frame `n / 512 - 1` at `n % 512 + 512` (when `n / 512 ≥ 1`), and in no other: so the
  result at `n` is the sample times the sum of at most two squared window values — `olaGain`. Listed by position that
  sum has five forms (`gain`): the first half frame, the second, the 4092 interior half frames, and the last two.
  The two agree (`gain_eq_olaGain`), and the sum of the two products is the product with the sum because a square is
  never negative on the extended reals (`overlap_add_two`).
-/
import Idealize.ShloMosaic.PureOps.Ideal
import Idealize.ShloMosaic.Lib.ValueIdx

noncomputable section

namespace Cert.OverlapAdd

open Idealize.ShloMosaic Idealize.ShloMosaic.ValueIdx

/-- A window: 1024 extended reals. -/
abbrev Win := (⟨1, ![1024]⟩ : Shape).Idx → EReal
/-- Sixteen signals of 2097152 samples. -/
abbrev Sig := (⟨2, ![16, 2097152]⟩ : Shape).Idx → EReal

/-- Tap `s` of the window, zero beyond it (the zero padding of the shifted halves). -/
def tap (w : Win) (s : ℕ) : EReal := if h : s < 1024 then w (ix1 ⟨s, h⟩) else 0

/-- An entry of the window is its tap at the entry's coordinate. -/
theorem tap_eq (w : Win) (j : (⟨1, ![1024]⟩ : Shape).Idx) (s : ℕ) (h : (j 0).val = s) : w j = tap w s := by
  subst h
  have hj : (j 0).val < 1024 := (j 0).isLt
  unfold tap
  rw [dif_pos hj]
  exact congrArg w (eq_ix1 j)

/-- The first frame's window: the window plus its upper half shifted down, under the square root. -/
def preWin (w : Win) (s : ℕ) : EReal := Ideal.sqrt (tap w s + (if s < 512 then tap w (s + 512) else 0))
/-- An interior frame's window. -/
def midWin (w : Win) (s : ℕ) : EReal := Ideal.sqrt (tap w s)
/-- The last frame's window: the window plus its lower half shifted up, under the square root. -/
def postWin (w : Win) (s : ℕ) : EReal := Ideal.sqrt (tap w s + (if s < 512 then 0 else tap w (s - 512)))
/-- Frame `k`'s window, of the 4095 frames. -/
def frameWin (w : Win) (k s : ℕ) : EReal := if k = 0 then preWin w s else if k = 4094 then postWin w s else midWin w s

/-- What sample `n` is multiplied by, listed by position: five stretches of half frames. -/
def gain (w : Win) (n : ℕ) : EReal :=
  if n < 512 then preWin w (n % 512) * preWin w (n % 512)
  else if n < 1024 then midWin w (n % 512) * midWin w (n % 512) + preWin w (n % 512 + 512) * preWin w (n % 512 + 512)
  else if n < 2096128 then midWin w (n % 512) * midWin w (n % 512) + midWin w (n % 512 + 512) * midWin w (n % 512 + 512)
  else if n < 2096640 then postWin w (n % 512) * postWin w (n % 512) + midWin w (n % 512 + 512) * midWin w (n % 512 + 512)
  else postWin w (n % 512 + 512) * postWin w (n % 512 + 512)

/-- The same by frames: the squared window of each of the at most two frames that hold sample `n`. -/
def olaGain (w : Win) (n : ℕ) : EReal :=
  (if n / 512 ≤ 4094 then frameWin w (n / 512) (n % 512) * frameWin w (n / 512) (n % 512) else 0)
    + (if 1 ≤ n / 512 then frameWin w (n / 512 - 1) (n % 512 + 512) * frameWin w (n / 512 - 1) (n % 512 + 512) else 0)

/-- The result both programs compute: every sample times its gain. -/
def G (x : Sig) (w : Win) : Sig := fun i => x i * gain w (i 1).val

/-- Position by position the five stretches are the frames' sum. -/
theorem gain_eq_olaGain (w : Win) (n : ℕ) (hn : n < 2097152) : gain w n = olaGain w n := by
  unfold gain olaGain frameWin
  by_cases h1 : n < 512
  · have e : n / 512 = 0 := by omega
    have c0 : (0 : ℕ) ≤ 4094 := by omega
    have c1 : ¬ ((1 : ℕ) ≤ 0) := by omega
    simp only [h1, e, c0, c1, if_true, if_false, add_zero]
  by_cases h2 : n < 1024
  · have e : n / 512 = 1 := by omega
    have c0 : ¬ ((1 : ℕ) = 0) := by omega
    have c1 : ¬ ((1 : ℕ) = 4094) := by omega
    have c2 : (1 : ℕ) ≤ 4094 := by omega
    simp only [h1, h2, e, c0, c1, c2, if_true, if_false, le_refl, Nat.sub_self]
  by_cases h3 : n < 2096128
  · have q1 : n / 512 ≤ 4094 := by omega
    have q2 : 1 ≤ n / 512 := by omega
    have q3 : ¬ (n / 512 = 0) := by omega
    have q4 : ¬ (n / 512 = 4094) := by omega
    have q5 : ¬ (n / 512 - 1 = 0) := by omega
    have q6 : ¬ (n / 512 - 1 = 4094) := by omega
    simp only [h1, h2, h3, q1, q2, q3, q4, q5, q6, if_true, if_false]
  by_cases h4 : n < 2096640
  · have e : n / 512 = 4094 := by omega
    have c0 : ¬ ((4094 : ℕ) = 0) := by omega
    have c1 : (1 : ℕ) ≤ 4094 := by omega
    have c2 : ¬ ((4094 : ℕ) - 1 = 0) := by omega
    have c3 : ¬ ((4094 : ℕ) - 1 = 4094) := by omega
    simp only [h1, h2, h3, h4, e, c0, c1, c2, c3, if_true, if_false, le_refl]
  · have e : n / 512 = 4095 := by omega
    have c0 : ¬ ((4095 : ℕ) ≤ 4094) := by omega
    have c1 : (1 : ℕ) ≤ 4095 := by omega
    have c2 : ¬ ((4095 : ℕ) - 1 = 0) := by omega
    have c3 : (4095 : ℕ) - 1 = 4094 := by omega
    simp only [h1, h2, h3, h4, e, c0, c1, c2, c3, if_true, if_false, zero_add]

/-- A square is never negative on the extended reals, the infinities included. -/
theorem mul_self_nonneg (a : EReal) : 0 ≤ a * a := by
  rcases le_total 0 a with h | h
  · exact mul_nonneg h h
  · have : a * a = (-a) * (-a) := by rw [neg_mul_neg]
    rw [this]
    exact mul_nonneg (EReal.neg_nonneg.mpr h) (EReal.neg_nonneg.mpr h)

/-- A term that is there or not, squared, is not negative. -/
theorem ite_sq_nonneg (c : Prop) [Decidable c] (a : EReal) : 0 ≤ (if c then a * a else 0) := by
  split
  · exact mul_self_nonneg a
  · exact le_refl 0

/-- Overlap-add of at most two frames at one sample: adding the sample, windowed twice by each frame that holds it,
    onto zero, is the sample times the sum of the squared windows. -/
theorem overlap_add_two (x a b : EReal) (ca cb : Prop) [Decidable ca] [Decidable cb] :
    (0 : EReal) + ((if ca then x * a * a else 0) + (if cb then x * b * b else 0))
      = x * ((if ca then a * a else 0) + (if cb then b * b else 0)) := by
  rw [zero_add, EReal.left_distrib_of_nonneg (ite_sq_nonneg ca a) (ite_sq_nonneg cb b)]
  congr 1
  · split
    · rw [mul_assoc]
    · rw [mul_zero]
  · split
    · rw [mul_assoc]
    · rw [mul_zero]

end Cert.OverlapAdd

end
-- ==== Proof.KernelRun.lean ====
/-
  The program runs to its end, faults nowhere, and leaves its two argument arrays as it found them.

  @main first computes on the host, from the 1024-tap window alone, one multiplier per sample position — a [1, 2097152]
  array — and then one region of sixteen grid points multiplies the [16, 2097152] signal by it: point `t` takes columns
  `131072·t … 131072·t + 131071` of the signal (all sixteen rows) and of the multiplier row, multiplies them entry by entry,
  the multiplier row repeated down the sixteen rows, and writes the product back to the same columns of the result.
  No host operation writes an argument array; the region only reads the signal and never touches the window. What a
  point leaves in the result's staging buffer is one store that covers the whole buffer, so it is that product whatever the
  buffer held before (`pointResult`); the inputs' staging buffers hold the blocks of their arrays at every point.
-/
import proofs.«161885_j23596550324744_1_alg».proof.Proof.Gen.Kernel.Launch
import proofs.«161885_j23596550324744_1_alg».proof.Proof.Gen.Kernel.Skeleton
import proofs.«161885_j23596550324744_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers after the thirty host operations that build the multiplier row. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the signal: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-- No host operation writes the window: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-! ## The blocks the points see -/

/-- Window `w`'s block at point `t`: the columns `131072·t …` of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The signal's staging buffer holds the signal's block at every point, for any proof data over these arrays whose
    body leaves that buffer alone. -/
theorem signal_staged {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The multiplier row's staging buffer holds the row's block at every point, likewise. -/
theorem row_staged {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that ends with every array of the region at what the proof data says and every other buffer as the
    region found it: the signal is an input the region never writes back, the window a buffer it never touches. -/
theorem args_kept (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## One point -/

/-- The whole [16, 131072] staging buffer, and the whole [1, 131072] one: the body's three accesses. -/
abbrev wholeSig : Rect S16x131072 := Rect.unit (s := S16x131072) ![0, 0] S16x131072.size inb_S16x131072_S16x131072_0_0
abbrev wholeRow : Rect S1x131072 := Rect.unit (s := S1x131072) ![0, 0] S1x131072.size inb_S1x131072_S1x131072_0_0

/-- What a point leaves in the result's staging buffer: its one store, the product of the signal block and the
    multiplier block repeated down the rows. -/
def pointResult (x0 : Vec F S16x131072 .f32) (x1 : Vec F S1x131072 .f32) : Vec F S16x131072 .f32 :=
  View.canon [⟨wholeSig, k0_pay1 (View.ld x0 wholeSig) (View.ld x1 wholeRow)⟩]

/-- That store covers the buffer. -/
theorem store_covers (p0 : Vec F S16x131072 .f32) (y : S16x131072.Idx) :
    ∃ pc ∈ ([⟨wholeSig, p0⟩] : List (View.Piece (Elt F) S16x131072 .f32)), y ∈ pc.1.set :=
  View.cover_of_tiled [⟨wholeSig, p0⟩] S16x131072.size (by rfl) y

set_option maxHeartbeats 1000000 in
/-- The body on three whole staging buffers — the signal's and the row's at known contents, the result's at anything —
    loads the first two, loads the third without using it, stores the product over all of the third, and hands back
    the first two as they were. -/
theorem sound_kernel (c : Dev nD) (E : Set ℕ) (i : grid0.Coords) (arg1 : Memref sig .tc .vmem S16x131072 .f32) (harg1 : arg1.IsWhole)
    (arg2 : Memref sig .tc .vmem S1x131072 .f32) (harg2 : arg2.IsWhole) (arg3 : Memref sig .tc .vmem S16x131072 .f32) (harg3 : arg3.IsWhole)
    (x0 : Vec F S16x131072 .f32) (x1 : Vec F S1x131072 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (pointResult x0 x1)) -∗ K ⟨⟩))
      ⊢ wp frame (wpE (defs₀ (F := F)) Variants.none c none) E (cc0__mul_kernel i arg1 harg1 arg2 harg2 arg3 harg3) K := by
  simp only [cc0__mul_kernel_eq_skeleton]; unfold cc0__mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The region's proof data -/

/-- On core `c`: the arrays as the region finds them; after point `t` the inputs' buffers at their blocks and the
    result's at the point's product; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => pointResult (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_signal (c : Dev nD) (t : Fin cfg0.N) : (dats m 0 c).after 0 t = iblk m c 0 t := by dsimp only [dats]
theorem after_row (c : Dev nD) (t : Fin cfg0.N) : (dats m 0 c).after 1 t = iblk m c 1 t := by dsimp only [dats]
theorem after_result (c : Dev nD) (t : Fin cfg0.N) : (dats m 0 c).after 2 t = pointResult (iblk m c 0 t) (iblk m c 1 t) := by dsimp only [dats]

theorem before_signal (c : Dev nD) (t : Fin cfg0.N) (d) : (dats m 0 c).before 0 t d = iblk m c 0 t :=
  signal_staged m (dats m 0 c) (A_eq m c 0) (after_signal m c) t d
theorem before_row (c : Dev nD) (t : Fin cfg0.N) (d) : (dats m 0 c).before 1 t d = iblk m c 1 t :=
  row_staged m (dats m 0 c) (A_eq m c 1) (after_row m c) t d

/-! ## Every point meets its obligation -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_signal, before_row]
  rw [show (dats m 0 c).Φ t.succ = (dats m 0 c).Φ t.castSucc from rfl,
    show (dats m 0 c).owesAt () t.succ = (dats m 0 c).owesAt () t.castSucc from rfl,
    after_signal, after_row, after_result]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault, every array of the region ending at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  args_kept m ρ (dats m) (A_eq m) (run_main m ρ)

end Cert.Kernel.Run

end
-- ==== Proof.KernelIdealRun.lean ====
/-
  The program runs to its end, faults nowhere, and leaves its two argument arrays as it found them.

  @main first computes on the host, from the 1024-tap window alone, one multiplier per sample position — a [1, 2097152]
  array — and then one region of sixteen grid points multiplies the [16, 2097152] signal by it: point `t` takes columns
  `131072·t … 131072·t + 131071` of the signal (all sixteen rows) and of the multiplier row, multiplies them entry by entry,
  the multiplier row repeated down the sixteen rows, and writes the product back to the same columns of the result.
  No host operation writes an argument array; the region only reads the signal and never touches the window. What a
  point leaves in the result's staging buffer is one store that covers the whole buffer, so it is that product whatever the
  buffer held before (`pointResult`); the inputs' staging buffers hold the blocks of their arrays at every point.
-/
import proofs.«161885_j23596550324744_1_alg».proof.Proof.Gen.KernelIdeal.Launch
import proofs.«161885_j23596550324744_1_alg».proof.Proof.Gen.KernelIdeal.Skeleton
import proofs.«161885_j23596550324744_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers after the thirty host operations that build the multiplier row. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the signal: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-- No host operation writes the window: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-! ## The blocks the points see -/

/-- Window `w`'s block at point `t`: the columns `131072·t …` of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The signal's staging buffer holds the signal's block at every point, for any proof data over these arrays whose
    body leaves that buffer alone. -/
theorem signal_staged {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The multiplier row's staging buffer holds the row's block at every point, likewise. -/
theorem row_staged {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that ends with every array of the region at what the proof data says and every other buffer as the
    region found it: the signal is an input the region never writes back, the window a buffer it never touches. -/
theorem args_kept (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## One point -/

/-- The whole [16, 131072] staging buffer, and the whole [1, 131072] one: the body's three accesses. -/
abbrev wholeSig : Rect S16x131072 := Rect.unit (s := S16x131072) ![0, 0] S16x131072.size inb_S16x131072_S16x131072_0_0
abbrev wholeRow : Rect S1x131072 := Rect.unit (s := S1x131072) ![0, 0] S1x131072.size inb_S1x131072_S1x131072_0_0

/-- What a point leaves in the result's staging buffer: its one store, the product of the signal block and the
    multiplier block repeated down the rows. -/
def pointResult (x0 : Vec F S16x131072 .f32) (x1 : Vec F S1x131072 .f32) : Vec F S16x131072 .f32 :=
  View.canon [⟨wholeSig, k0_pay1 (View.ld x0 wholeSig) (View.ld x1 wholeRow)⟩]

/-- That store covers the buffer. -/
theorem store_covers (p0 : Vec F S16x131072 .f32) (y : S16x131072.Idx) :
    ∃ pc ∈ ([⟨wholeSig, p0⟩] : List (View.Piece (Elt F) S16x131072 .f32)), y ∈ pc.1.set :=
  View.cover_of_tiled [⟨wholeSig, p0⟩] S16x131072.size (by rfl) y

set_option maxHeartbeats 1000000 in
/-- The body on three whole staging buffers — the signal's and the row's at known contents, the result's at anything —
    loads the first two, loads the third without using it, stores the product over all of the third, and hands back
    the first two as they were. -/
theorem sound_kernel (c : Dev nD) (E : Set ℕ) (i : grid0.Coords) (arg1 : Memref sig .tc .vmem S16x131072 .f32) (harg1 : arg1.IsWhole)
    (arg2 : Memref sig .tc .vmem S1x131072 .f32) (harg2 : arg2.IsWhole) (arg3 : Memref sig .tc .vmem S16x131072 .f32) (harg3 : arg3.IsWhole)
    (x0 : Vec F S16x131072 .f32) (x1 : Vec F S1x131072 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (pointResult x0 x1)) -∗ K ⟨⟩))
      ⊢ wp frame (wpE (defs₀ (F := F)) Variants.none c none) E (cc0__mul_kernel i arg1 harg1 arg2 harg2 arg3 harg3) K := by
  simp only [cc0__mul_kernel_eq_skeleton]; unfold cc0__mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The region's proof data -/

/-- On core `c`: the arrays as the region finds them; after point `t` the inputs' buffers at their blocks and the
    result's at the point's product; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => pointResult (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_signal (c : Dev nD) (t : Fin cfg0.N) : (dats m 0 c).after 0 t = iblk m c 0 t := by dsimp only [dats]
theorem after_row (c : Dev nD) (t : Fin cfg0.N) : (dats m 0 c).after 1 t = iblk m c 1 t := by dsimp only [dats]
theorem after_result (c : Dev nD) (t : Fin cfg0.N) : (dats m 0 c).after 2 t = pointResult (iblk m c 0 t) (iblk m c 1 t) := by dsimp only [dats]

theorem before_signal (c : Dev nD) (t : Fin cfg0.N) (d) : (dats m 0 c).before 0 t d = iblk m c 0 t :=
  signal_staged m (dats m 0 c) (A_eq m c 0) (after_signal m c) t d
theorem before_row (c : Dev nD) (t : Fin cfg0.N) (d) : (dats m 0 c).before 1 t d = iblk m c 1 t :=
  row_staged m (dats m 0 c) (A_eq m c 1) (after_row m c) t d

/-! ## Every point meets its obligation -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_signal, before_row]
  rw [show (dats m 0 c).Φ t.succ = (dats m 0 c).Φ t.castSucc from rfl,
    show (dats m 0 c).owesAt () t.succ = (dats m 0 c).owesAt () t.castSucc from rfl,
    after_signal, after_row, after_result]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault, every array of the region ending at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  args_kept m ρ (dats m) (A_eq m) (run_main m ρ)

end Cert.KernelIdeal.Run

end
-- ==== Proof.KernelIdealProduct.lean ====
/-
  What the idealized program's result array holds after the run: the signal times the multiplier row, entry by entry.

  Point `t` of the grid writes back the columns `131072·t … 131072·t + 131071` of the result; what it writes at row `p`,
  column `q` of its block is the signal's entry at (`p`, `131072·t + q`) times the row's entry at `131072·t + q`: the three
  windows move together, one block per point, so the block read through the result's window is the block of ONE
  whole-array function (`product`). The sixteen blocks tile the columns — column `n` lies in the block of point
  `n / 131072` — so the array ends holding that function everywhere.
-/
import proofs.«161885_j23596550324744_1_alg».proof.Proof.KernelIdealRun
import Idealize.ShloMosaic.Lib.Pipeline.Value
import Idealize.ShloMosaic.Lib.ValueIdx
import Idealize.ShloMosaic.Lib.ValueLayout

set_option maxRecDepth 16384

noncomputable section

namespace Cert.KernelIdeal.Product

open Cert.KernelIdeal Cert.KernelIdeal.Gen Cert.KernelIdeal.Run
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The signal times the multiplier row, the row repeated down the sixteen signals. -/
def product (a : S16x2097152.Idx → EReal) (r : S1x2097152.Idx → EReal) : S16x2097152.Idx → EReal :=
  fun i => a i * r (ix2 (0 : Fin 1) (i 1))

theorem zero_offsets : (![0, 0] : Fin 2 → Nat) = fun _ => 0 := funext fun a => by fin_cases a <;> rfl

/-- The body's one payload at an entry of the block: the signal block's entry times the row block's entry in the
    same column. -/
theorem payload_apply (x0 : Vec Ideal S16x131072 .f32) (x1 : Vec Ideal S1x131072 .f32) (j : S16x131072.Idx) :
    k0_pay1 x0 x1 j = x0 j * x1 (ix2 (0 : Fin 1) (j 1)) := by
  obtain ⟨p, q, rfl⟩ : ∃ (p : Fin 16) (q : Fin 131072), j = ix2 p q := ⟨j 0, j 1, eq_ix2 j⟩
  unfold k0_pay1
  show x0 (ix2 p q) * broadcastTo S16x131072 (shapeCast S1x131072 x1 shapeCasts_S1x131072_S1x131072) broadcasts_S1x131072_S16x131072 (ix2 p q) = _
  rw [shapeCast_self]
  exact congrArg (x0 (ix2 p q) * ·) (broadcastTo_1b_ab_apply x1 _ p q)

/-- The three windows' block indices at point `t`: row block 0, column block `t`. -/
theorem block_indices : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- What point `t` writes back is block `t` of the product of the arrays as the region finds them. -/
theorem flushed_eq (c : Dev nD) (t : Fin cfg0.N) :
    (dats m 0 c).flushed 2 t = ((cfg0.win 2).blk t).view.read (Elt Ideal) (product (V m c main_arg0) (V m c main_v28)) := by
  show (cfg0.win 2).cut (grid0.coords t) ((dats m 0 c).after 2 t) = _
  rw [after_result]
  unfold pointResult
  rw [View.canon_unit_zero zero_offsets]
  simp only [View.ld_unit_zero (S := S16x131072) zero_offsets, View.ld_unit_zero (S := S1x131072) zero_offsets]
  obtain ⟨e0, e1, e2, e3, e4, e5⟩ := block_indices t
  funext j
  refine (payload_apply (iblk m c 0 t) (iblk m c 1 t) j).trans ?_
  have h0 : ((cfg0.win 0).blk t).view.emb j = ((cfg0.win 2).blk t).view.emb j := by
    funext a; apply Fin.ext
    match a with
    | ⟨0, _⟩ => show win0_0.index t (0 : Fin 2) * 16 + 1 * (j 0).val = win0_2.index t (0 : Fin 2) * 16 + 1 * (j 0).val; omega
    | ⟨1, _⟩ => show win0_0.index t (1 : Fin 2) * 131072 + 1 * (j 1).val = win0_2.index t (1 : Fin 2) * 131072 + 1 * (j 1).val; omega
  have h1 : ((cfg0.win 1).blk t).view.emb (ix2 (0 : Fin 1) (j 1)) = ix2 (0 : Fin 1) ((((cfg0.win 2).blk t).view.emb j) 1) := by
    funext a; apply Fin.ext
    match a with
    | ⟨0, _⟩ => show win0_1.index t (0 : Fin 2) * 1 + 1 * 0 = 0; omega
    | ⟨1, _⟩ => show win0_1.index t (1 : Fin 2) * 131072 + 1 * (j 1).val = win0_2.index t (1 : Fin 2) * 131072 + 1 * (j 1).val; omega
  have hx : iblk m c 0 t j = V m c main_arg0 (((cfg0.win 2).blk t).view.emb j) := congrArg (V m c main_arg0) h0
  have hr : iblk m c 1 t (ix2 (0 : Fin 1) (j 1)) = V m c main_v28 (ix2 (0 : Fin 1) ((((cfg0.win 2).blk t).view.emb j) 1)) :=
    congrArg (V m c main_v28) h1
  rw [hx, hr]
  rfl

/-- An entry of the result lies in point `t`'s block iff each coordinate is in the block's range. -/
theorem mem_blk (t : Fin cfg0.N) (i : S16x2097152.Idx) :
    i ∈ ((cfg0.win 2).blk t).view.set ↔ ∀ a : Fin 2, win0_2.index t a * S16x131072.size a ≤ (i a).val ∧ (i a).val < win0_2.index t a * S16x131072.size a + S16x131072.size a := by
  show i ∈ ((View.whole main_v29).slice (win0_2.rect t)).set ↔ _
  rw [View.set_slice_whole, Rect.mem_set_unit]
  exact Iff.rfl

/-- Every entry of the result is written back by some point: column `n` by point `n / 131072`. -/
theorem covered (i : S16x2097152.Idx) :
    ∃ t : Fin cfg0.N, (cfg0.win 2).flush t = true ∧ i ∈ ((cfg0.win 2).blk t).view.set := by
  have hi0 : (i 0).val < 16 := (i 0).isLt
  have hi1 : (i 1).val < 2097152 := (i 1).isLt
  have hN : (i 1).val / 131072 < cfg0.N := by show _ < grid0.N; rw [N_0]; omega
  obtain ⟨e0, e1, e2, e3, e4, e5⟩ := block_indices ⟨(i 1).val / 131072, hN⟩
  have e5' : win0_2.index ⟨(i 1).val / 131072, hN⟩ (1 : Fin 2) = (i 1).val / 131072 := e5
  refine ⟨⟨(i 1).val / 131072, hN⟩, flush0_2 _, ?_⟩
  rw [mem_blk]
  intro a
  match a with
  | ⟨0, _⟩ => show win0_2.index ⟨(i 1).val / 131072, hN⟩ (0 : Fin 2) * 16 ≤ (i 0).val ∧ (i 0).val < win0_2.index ⟨(i 1).val / 131072, hN⟩ (0 : Fin 2) * 16 + 16; omega
  | ⟨1, _⟩ => show win0_2.index ⟨(i 1).val / 131072, hN⟩ (1 : Fin 2) * 131072 ≤ (i 1).val ∧ (i 1).val < win0_2.index ⟨(i 1).val / 131072, hN⟩ (1 : Fin 2) * 131072 + 131072; omega

/-- The result array after the run is the product. -/
theorem final (c : Dev nD) : (dats m 0 c).arrAt 2 cfg0.N = product (V m c main_arg0) (V m c main_v28) :=
  (dats m 0 c).arrAt_eq_of_cover 2 _ (fun t _ => flushed_eq m c t) covered

/-- The run, read: the result is the launched signal times the multiplier row the host operations built, and the
    arguments are unchanged. -/
theorem run : θ_run defs (onTc (τ := τ) (main (F := Ideal))) ⟨m, fun _ => 0, ρ⟩ fun r => ∀ c : Dev nD,
      r.2.mem ((c : Thread nD τ).loc main_v29) = product (m ((c : Thread nD τ).loc main_arg0)) (V m c main_v28)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans ((final m c).trans (by rw [V_main_arg0])),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Product

end
-- ==== Proof.GainArray.lean ====
/-
  The multiplier array the kernel program builds on the host from the window, as one pure term of the window, and that
  term read entry by entry.

  From the 1024 taps `w` the program forms three squared windows — the square of the square root of `w` plus its upper
  half shifted down (the first frame's), of `w` itself (an interior frame's), of `w` plus its lower half shifted up (the
  last frame's); the shifted halves are two-piece concatenations with 512 zeros —, cuts each into its two halves, and lays
  five stretches end to end: the first frame's lower half; the interior lower half plus the first frame's upper half; the
  interior lower half plus the interior upper half, 4092 times over; the last frame's lower half plus the interior upper
  half; the last frame's upper half. Entry `n` of that array is `gain w n`: stretch by stretch the entry is found by the
  offset of its stretch (0, 512, 1024, 2096128, 2096640), inside the repeated stretch by the remainder modulo 512, and
  every stretch's entry is a sum of squares of square roots of taps.
-/
import proofs.«161885_j23596550324744_1_alg».proof.Proof.Gen.KernelIdeal.Launch
import proofs.«161885_j23596550324744_1_alg».proof.Proof.OverlapAdd
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.GainArray

open Cert.KernelIdeal Cert.KernelIdeal.Gen Idealize.ShloMosaic Idealize.ShloMosaic.TcCoe Idealize.ShloMosaic.ValueIdx
open Idealize.SL.Sem

variable {F : FTy → Type} [FloatOps F]

/-- A float vector of the given shape. -/
abbrev Vf (F : FTy → Type) (s : Shape) : Type := (⟨s, .f32⟩ : BufTy).Contents (Elt F)

/-! ## The array as a term of the window -/

/-- 512 zeros: the padding of a shifted half. -/
def zeroHalf : Vf F S512 := broadcastInDim S512 ![] bcast_S_S512 (constant S_ .f32 0x00000000#32)

/-- The lower half of a 1024-vector. -/
def lower (x : Vf F S1024) : Vf F S512 := extractStridedSlice S512 ![0] x slices_S1024_S512_0
/-- The upper half of a 1024-vector. -/
def upper (x : Vf F S1024) : Vf F S512 := extractStridedSlice S512 ![512] x slices_S1024_S512_512

/-- The first frame's window: the square root of the window plus its upper half shifted down over zeros. -/
def preRoot (w : Vf F S1024) : Vf F S1024 :=
  Host.sqrt (addf w (concatenate S1024 0 [⟨S512, upper w⟩, ⟨S512, zeroHalf⟩] concatenates_S512_S512_S1024_d0))
/-- An interior frame's window: the square root of the window. -/
def midRoot (w : Vf F S1024) : Vf F S1024 := Host.sqrt w
/-- The last frame's window: the square root of the window plus its lower half shifted up over zeros. -/
def postRoot (w : Vf F S1024) : Vf F S1024 :=
  Host.sqrt (addf w (concatenate S1024 0 [⟨S512, zeroHalf⟩, ⟨S512, lower w⟩] concatenates_S512_S512_S1024_d0))

/-- The first frame's window squared. -/
def preSq (w : Vf F S1024) : Vf F S1024 := mulf (preRoot w) (preRoot w)
/-- An interior frame's window squared. -/
def midSq (w : Vf F S1024) : Vf F S1024 := mulf (midRoot w) (midRoot w)
/-- The last frame's window squared. -/
def postSq (w : Vf F S1024) : Vf F S1024 := mulf (postRoot w) (postRoot w)

/-- The first stretch: samples of the first frame only. -/
def seg0 (w : Vf F S1024) : Vf F S512 := lower (preSq w)
/-- The second stretch: the second frame's lower half over the first frame's upper half. -/
def seg1 (w : Vf F S1024) : Vf F S512 := addf (lower (midSq w)) (upper (preSq w))
/-- One interior stretch: an interior frame's lower half over the previous interior frame's upper half. -/
def segMid (w : Vf F S1024) : Vf F S512 := addf (lower (midSq w)) (upper (midSq w))
/-- The interior stretch repeated 4092 times: one row, the row repeated down 4092 rows, the rows end to end. -/
def tiled (w : Vf F S1024) : Vf F S2095104 :=
  shapeCast S2095104
    (broadcastInDim S4092x512 ![0, 1] bcast_S1x512_S4092x512_0_1 (shapeCast S1x512 (segMid w) shapeCasts_S512_S1x512))
    shapeCasts_S4092x512_S2095104
/-- The last stretch but one: the last frame's lower half over the last interior frame's upper half. -/
def seg3 (w : Vf F S1024) : Vf F S512 := addf (lower (postSq w)) (upper (midSq w))
/-- The last stretch: samples of the last frame only. -/
def seg4 (w : Vf F S1024) : Vf F S512 := upper (postSq w)

/-- The five stretches end to end. -/
def flat (w : Vf F S1024) : Vf F S2097152 :=
  concatenate S2097152 0 [⟨S512, seg0 w⟩, ⟨S512, seg1 w⟩, ⟨S2095104, tiled w⟩, ⟨S512, seg3 w⟩, ⟨S512, seg4 w⟩]
    concatenates_S512_S512_S2095104_S512_S512_S2097152_d0

/-- The multiplier array: the five stretches as one row. -/
def gainArray (w : (⟨S1024, .f32⟩ : BufTy).Contents (Elt F)) : (⟨S1x2097152, .f32⟩ : BufTy).Contents (Elt F) :=
  shapeCast S1x2097152 (flat w) shapeCasts_S2097152_S1x2097152

/-! ## The program's host operations leave that term -/

/-- After the thirty host operations the multiplier's buffer holds `gainArray` of the window's launch contents: each
    operation's result is its function of its operands' contents, and the composition is the term above. -/
theorem entry_eq (m : (ℓ : Loc nD τ sig) → Buf (Elt F) ℓ) (c : Dev nD) :
    (StableHlo.after (hostOps0 (F := F)) (fun b => m (c, b)) main_v28 : S1x2097152.Idx → Elt F .f32)
      = gainArray (m ((c : Thread nD τ).loc main_arg1)) := by
  dsimp only [hostOps0]
  after_results
  rfl

/-! ## Halves, and two halves end to end, read at an index -/

section Halves
variable {α : Type}

/-- The lower half at `s` is the vector at `s`. -/
theorem lower_apply (x : Vf F S1024) (s : Fin 512) (k : Fin 1024) (hk : k.val = s.val) : lower x (ix1 s) = x (ix1 k) := by
  unfold lower
  exact extractStridedSlice_apply _ x _ _ _ (fun a => by
    match a with
    | ⟨0, _⟩ => exact hk.trans (Nat.zero_add _).symm)

/-- The upper half at `s` is the vector at `512 + s`. -/
theorem upper_apply (x : Vf F S1024) (s : Fin 512) (k : Fin 1024) (hk : k.val = 512 + s.val) : upper x (ix1 s) = x (ix1 k) := by
  unfold upper
  exact extractStridedSlice_apply _ x _ _ _ (fun a => by
    match a with
    | ⟨0, _⟩ => exact hk)

/-- Two 512-vectors end to end, read in the first. -/
theorem halves_apply_left (a b : S512.Idx → α) (s : Fin 1024) (hs : s.val < 512) :
    concatenate S1024 0 [⟨S512, a⟩, ⟨S512, b⟩] concatenates_S512_S512_S1024_d0 (ix1 s) = a (ix1 ⟨s.val, hs⟩) :=
  concatenate_pair_apply_left (t := S1024) 0 a b concatenates_S512_S512_S1024_d0 (ix1 s) rfl (ix1 ⟨s.val, hs⟩) (fun c => by
    match c with
    | ⟨0, _⟩ => rfl)

/-- Two 512-vectors end to end, read in the second. -/
theorem halves_apply_right (a b : S512.Idx → α) (s : Fin 1024) (hs : 512 ≤ s.val) :
    concatenate S1024 0 [⟨S512, a⟩, ⟨S512, b⟩] concatenates_S512_S512_S1024_d0 (ix1 s)
      = b (ix1 ⟨s.val - 512, by have := s.isLt; omega⟩) :=
  concatenate_pair_apply_right (t := S1024) 0 a b concatenates_S512_S512_S1024_d0 (ix1 s) rfl rfl
    (ix1 ⟨s.val - 512, by have := s.isLt; omega⟩)
    (fun c hc => by
      match c with
      | ⟨0, _⟩ => exact absurd rfl hc)
    (by show s.val - 512 + 512 = s.val; omega)

end Halves

/-! ## The three windows at a tap, over the extended reals -/

section AtIdeal

/-- The zero padding reads zero. -/
theorem zeroHalf_apply (j : S512.Idx) : zeroHalf (F := Ideal) j = 0 := by
  unfold zeroHalf
  rw [broadcastInDim_apply (s := S_) (t := S512) ![] bcast_S_S512 _ j ix0 (fun a => a.elim0), constant_apply]
  exact Ideal.ofBits_zero_f32

/-- The first frame's window at tap `s`. -/
theorem preRoot_apply (w : Vf Ideal S1024) (s : Fin 1024) : preRoot w (ix1 s) = Cert.OverlapAdd.preWin w s.val := by
  show Ideal.sqrt (w (ix1 s)
    + concatenate S1024 0 [⟨S512, upper w⟩, ⟨S512, zeroHalf⟩] concatenates_S512_S512_S1024_d0 (ix1 s)) = _
  unfold Cert.OverlapAdd.preWin
  rw [Cert.OverlapAdd.tap_eq w (ix1 s) s.val rfl]
  by_cases hs : s.val < 512
  · rw [halves_apply_left _ _ s hs, if_pos hs,
      upper_apply w ⟨s.val, hs⟩ ⟨s.val + 512, by omega⟩ (Nat.add_comm _ _),
      Cert.OverlapAdd.tap_eq w _ (s.val + 512) rfl]
  · rw [halves_apply_right _ _ s (by omega), if_neg hs, zeroHalf_apply]

/-- An interior frame's window at tap `s`. -/
theorem midRoot_apply (w : Vf Ideal S1024) (s : Fin 1024) : midRoot w (ix1 s) = Cert.OverlapAdd.midWin w s.val := by
  show Ideal.sqrt (w (ix1 s)) = _
  unfold Cert.OverlapAdd.midWin
  rw [Cert.OverlapAdd.tap_eq w (ix1 s) s.val rfl]

/-- The last frame's window at tap `s`. -/
theorem postRoot_apply (w : Vf Ideal S1024) (s : Fin 1024) : postRoot w (ix1 s) = Cert.OverlapAdd.postWin w s.val := by
  show Ideal.sqrt (w (ix1 s)
    + concatenate S1024 0 [⟨S512, zeroHalf⟩, ⟨S512, lower w⟩] concatenates_S512_S512_S1024_d0 (ix1 s)) = _
  unfold Cert.OverlapAdd.postWin
  rw [Cert.OverlapAdd.tap_eq w (ix1 s) s.val rfl]
  by_cases hs : s.val < 512
  · rw [halves_apply_left _ _ s hs, if_pos hs, zeroHalf_apply]
  · have h5 : 512 ≤ s.val := by omega
    rw [halves_apply_right _ _ s h5, if_neg hs,
      lower_apply w ⟨s.val - 512, by have := s.isLt; omega⟩ ⟨s.val - 512, by have := s.isLt; omega⟩ rfl,
      Cert.OverlapAdd.tap_eq w _ (s.val - 512) rfl]

/-- The squared windows at a tap. -/
theorem preSq_apply (w : Vf Ideal S1024) (s : Fin 1024) (r : ℕ) (hr : s.val = r) :
    preSq w (ix1 s) = Cert.OverlapAdd.preWin w r * Cert.OverlapAdd.preWin w r := by
  subst hr
  show preRoot w (ix1 s) * preRoot w (ix1 s) = _
  rw [preRoot_apply]
theorem midSq_apply (w : Vf Ideal S1024) (s : Fin 1024) (r : ℕ) (hr : s.val = r) :
    midSq w (ix1 s) = Cert.OverlapAdd.midWin w r * Cert.OverlapAdd.midWin w r := by
  subst hr
  show midRoot w (ix1 s) * midRoot w (ix1 s) = _
  rw [midRoot_apply]
theorem postSq_apply (w : Vf Ideal S1024) (s : Fin 1024) (r : ℕ) (hr : s.val = r) :
    postSq w (ix1 s) = Cert.OverlapAdd.postWin w r * Cert.OverlapAdd.postWin w r := by
  subst hr
  show postRoot w (ix1 s) * postRoot w (ix1 s) = _
  rw [postRoot_apply]

end AtIdeal

/-! ## The five stretches at an index -/

section Stretches

/-- The first stretch at `i`: the first frame's window at tap `i`, squared. -/
theorem seg0_apply (w : Vf Ideal S1024) (i : Fin 512) (r : ℕ) (hr : i.val = r) :
    seg0 w (ix1 i) = Cert.OverlapAdd.preWin w r * Cert.OverlapAdd.preWin w r := by
  unfold seg0
  rw [lower_apply (preSq w) i ⟨i.val, by omega⟩ rfl, preSq_apply w _ r hr]

/-- The second stretch at `i`: an interior frame at tap `i` and the first frame at tap `i + 512`. -/
theorem seg1_apply (w : Vf Ideal S1024) (i : Fin 512) (r : ℕ) (hr : i.val = r) :
    seg1 w (ix1 i) = Cert.OverlapAdd.midWin w r * Cert.OverlapAdd.midWin w r
      + Cert.OverlapAdd.preWin w (r + 512) * Cert.OverlapAdd.preWin w (r + 512) := by
  show lower (midSq w) (ix1 i) + upper (preSq w) (ix1 i) = _
  rw [lower_apply (midSq w) i ⟨i.val, by omega⟩ rfl, midSq_apply w _ r hr,
    upper_apply (preSq w) i ⟨i.val + 512, by omega⟩ (Nat.add_comm _ _), preSq_apply w _ (r + 512) (by show i.val + 512 = r + 512; omega)]

/-- An interior stretch at `i`: interior frames at taps `i` and `i + 512`. -/
theorem segMid_apply (w : Vf Ideal S1024) (i : Fin 512) (r : ℕ) (hr : i.val = r) :
    segMid w (ix1 i) = Cert.OverlapAdd.midWin w r * Cert.OverlapAdd.midWin w r
      + Cert.OverlapAdd.midWin w (r + 512) * Cert.OverlapAdd.midWin w (r + 512) := by
  show lower (midSq w) (ix1 i) + upper (midSq w) (ix1 i) = _
  rw [lower_apply (midSq w) i ⟨i.val, by omega⟩ rfl, midSq_apply w _ r hr,
    upper_apply (midSq w) i ⟨i.val + 512, by omega⟩ (Nat.add_comm _ _), midSq_apply w _ (r + 512) (by show i.val + 512 = r + 512; omega)]

/-- The last stretch but one at `i`: the last frame at tap `i` and an interior frame at tap `i + 512`. -/
theorem seg3_apply (w : Vf Ideal S1024) (i : Fin 512) (r : ℕ) (hr : i.val = r) :
    seg3 w (ix1 i) = Cert.OverlapAdd.postWin w r * Cert.OverlapAdd.postWin w r
      + Cert.OverlapAdd.midWin w (r + 512) * Cert.OverlapAdd.midWin w (r + 512) := by
  show lower (postSq w) (ix1 i) + upper (midSq w) (ix1 i) = _
  rw [lower_apply (postSq w) i ⟨i.val, by omega⟩ rfl, postSq_apply w _ r hr,
    upper_apply (midSq w) i ⟨i.val + 512, by omega⟩ (Nat.add_comm _ _), midSq_apply w _ (r + 512) (by show i.val + 512 = r + 512; omega)]

/-- The last stretch at `i`: the last frame's window at tap `i + 512`, squared. -/
theorem seg4_apply (w : Vf Ideal S1024) (i : Fin 512) (r : ℕ) (hr : i.val = r) :
    seg4 w (ix1 i) = Cert.OverlapAdd.postWin w (r + 512) * Cert.OverlapAdd.postWin w (r + 512) := by
  unfold seg4
  rw [upper_apply (postSq w) i ⟨i.val + 512, by omega⟩ (Nat.add_comm _ _), postSq_apply w _ (r + 512) (by show i.val + 512 = r + 512; omega)]

/-- The repeated stretch at `q` is the interior stretch at `q` modulo 512: `q` is row `q / 512`, column `q % 512` of the
    4092 equal rows. -/
theorem tiled_apply (w : Vf F S1024) (q : Fin 2095104) (i : Fin 512) (hi : i.val = q.val % 512) :
    tiled w (ix1 q) = segMid w (ix1 i) := by
  unfold tiled
  rw [shapeCast_apply (s := S4092x512) (t := S2095104) _ shapeCasts_S4092x512_S2095104 (ix1 q)
      (ix2 ⟨q.val / 512, by have := q.isLt; omega⟩ i)
      (by rw [Shape.rowMajor_val_two, Shape.rowMajor_val_one]
          show q.val / 512 * 512 + i.val = q.val
          omega),
    broadcastInDim_apply (s := S1x512) (t := S4092x512) ![0, 1] bcast_S1x512_S4092x512_0_1 _ _ (ix2 (0 : Fin 1) i)
      (fun a => by
        match a with
        | ⟨0, _⟩ => rfl
        | ⟨1, _⟩ => rfl),
    shapeCast_a_1a_apply]

end Stretches

/-! ## The whole array at an index -/

section Whole

/-- The five stretches end to end, read in stretch `k`, which starts at `pre`. -/
theorem flat_apply_piece (w : Vf F S1024) (n : Fin 2097152) (k : ℕ) (hk : k < 5) (s₁ : Shape) (x₁ : s₁.Idx → Elt F .f32)
    (hxk : [(⟨S512, seg0 w⟩ : (s : Shape) × (s.Idx → Elt F .f32)), ⟨S512, seg1 w⟩, ⟨S2095104, tiled w⟩, ⟨S512, seg3 w⟩, ⟨S512, seg4 w⟩][k]
      = ⟨s₁, x₁⟩)
    (hr : s₁.rank = 1) (pre : ℕ)
    (hpre : ((([(⟨S512, seg0 w⟩ : (s : Shape) × (s.Idx → Elt F .f32)), ⟨S512, seg1 w⟩, ⟨S2095104, tiled w⟩, ⟨S512, seg3 w⟩, ⟨S512, seg4 w⟩].take k).map (·.1)).map
        fun s => if h : s.rank = S2097152.rank then s.size ((0 : Fin S2097152.rank).cast h.symm) else 0).sum = pre)
    (i : s₁.Idx) (ha : pre + (i ((0 : Fin S2097152.rank).cast hr.symm)).val = n.val) :
    flat w (ix1 n) = x₁ i := by
  unfold flat
  exact concatenate_apply_piece (t := S2097152) 0
    [(⟨S512, seg0 w⟩ : (s : Shape) × (s.Idx → Elt F .f32)), ⟨S512, seg1 w⟩, ⟨S2095104, tiled w⟩, ⟨S512, seg3 w⟩, ⟨S512, seg4 w⟩]
    concatenates_S512_S512_S2095104_S512_S512_S2097152_d0 (ix1 n) k hk s₁ x₁ hxk hr pre hpre i
    (fun b hb => by
      have : b.val = 0 := by have := b.isLt; omega
      exact absurd (Fin.ext this) hb)
    ha

/-- **Entry `n` of the multiplier array is the gain at `n`**, over the extended reals: the row's one coordinate is dropped, the
    stretch that holds `n` is read at `n` less the stretch's start, and that offset is `n` modulo 512 (inside the repeated
    stretch, after the reduction modulo 512). -/
theorem gainArray_apply (w : (⟨S1024, .f32⟩ : BufTy).Contents (Elt Ideal)) (p : Fin 1) (n : Fin 2097152) :
    gainArray (F := Ideal) w (ix2 p n) = Cert.OverlapAdd.gain w n.val := by
  unfold gainArray
  rw [shapeCast_a_1a_apply]
  unfold Cert.OverlapAdd.gain
  have hn := n.isLt
  by_cases h1 : n.val < 512
  · rw [if_pos h1,
      flat_apply_piece w n 0 (by omega) S512 (seg0 w) rfl rfl 0 rfl (ix1 ⟨n.val, h1⟩) (Nat.zero_add _),
      seg0_apply w _ (n.val % 512) (by show n.val = n.val % 512; omega)]
  by_cases h2 : n.val < 1024
  · rw [if_neg h1, if_pos h2,
      flat_apply_piece w n 1 (by omega) S512 (seg1 w) rfl rfl 512 (by simp) (ix1 ⟨n.val - 512, by omega⟩)
        (by show 512 + (n.val - 512) = n.val; omega),
      seg1_apply w _ (n.val % 512) (by show n.val - 512 = n.val % 512; omega)]
  by_cases h3 : n.val < 2096128
  · rw [if_neg h1, if_neg h2, if_pos h3,
      flat_apply_piece w n 2 (by omega) S2095104 (tiled w) rfl rfl 1024 (by simp) (ix1 ⟨n.val - 1024, by omega⟩)
        (by show 1024 + (n.val - 1024) = n.val; omega),
      tiled_apply w _ ⟨n.val % 512, Nat.mod_lt _ (by omega)⟩ (by show n.val % 512 = (n.val - 1024) % 512; omega),
      segMid_apply w _ (n.val % 512) rfl]
  by_cases h4 : n.val < 2096640
  · rw [if_neg h1, if_neg h2, if_neg h3, if_pos h4,
      flat_apply_piece w n 3 (by omega) S512 (seg3 w) rfl rfl 2096128 (by simp) (ix1 ⟨n.val - 2096128, by omega⟩)
        (by show 2096128 + (n.val - 2096128) = n.val; omega),
      seg3_apply w _ (n.val % 512) (by show n.val - 2096128 = n.val % 512; omega)]
  · rw [if_neg h1, if_neg h2, if_neg h3, if_neg h4,
      flat_apply_piece w n 4 (by omega) S512 (seg4 w) rfl rfl 2096640 (by simp) (ix1 ⟨n.val - 2096640, by omega⟩)
        (by show 2096640 + (n.val - 2096640) = n.val; omega),
      seg4_apply w _ (n.val % 512) (by show n.val - 2096640 = n.val % 512; omega)]

end Whole

end Cert.KernelIdeal.GainArray

end
-- ==== Proof.LibScatterAdd.lean ====
/-
  Two general facts about an accumulating scatter read at one element of its result.

  1. `ScatterDims.resultIdx?_eq_some_iff`: update index `j` lands on the operand index `i` exactly when, on every operand
     axis, the window's start plus the window coordinate IS `i`'s coordinate (as integers: the start is read signed and is
     not clamped, and an update that leaves the operand lands nowhere).
  2. `sum_filter_two`: a sum over the indices satisfying a predicate that has at most two solutions, `a` (when `ca`)
     and `b` (when `cb`), is the sum of the two terms that are there. In an overlap-add every output sample is met by
     at most two update elements; the same shape serves any scatter whose colliding updates are at most two.
  Together with `Ideal.hostScatterAdd` (the operand element plus the sum of the updates that land on it) they read the
  scatter at an index without listing the updates.
-/
import Idealize.ShloMosaic.PureOps.Ideal

namespace Idealize.ShloMosaic

namespace ScatterDims

variable {s si u : Shape} (d : ScatterDims s si u)

/-- Update index `j` lands on `i` iff start plus window coordinate is `i`'s coordinate on every operand axis. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show d.start j idx a + (d.window j a : Int) = (((d.start j idx a + (d.window j a : Int)).toNat : Nat) : Int)
      omega
    · intro hh
      funext a
      apply Fin.ext
      have := hh a
      show (d.start j idx a + (d.window j a : Int)).toNat = (i a).val
      omega
  · rename_i h
    constructor
    · intro hh; exact absurd hh (by simp)
    · intro hh
      exact absurd (fun a => by have := hh a; have := (i a).isLt; omega) h

end ScatterDims

/-- A sum over the solutions of a predicate with at most two solutions: `a` when `ca` holds, `b` when `cb` holds. -/
theorem sum_filter_two {ι M : Type*} [Fintype ι] [DecidableEq ι] [AddCommMonoid M] (P : ι → Prop) [DecidablePred P]
    (f : ι → M) (a b : ι) (ca cb : Prop) [Decidable ca] [Decidable cb] (hab : a ≠ b)
    (hP : ∀ j, P j ↔ (ca ∧ j = a) ∨ (cb ∧ j = b)) :
    ∑ j ∈ Finset.univ.filter P, f j = (if ca then f a else 0) + (if cb then f b else 0) := by
  by_cases ha : ca <;> by_cases hb : cb
  · have e : Finset.univ.filter P = {a, b} := by
      ext j; simp only [Finset.mem_filter, Finset.mem_univ, true_and, Finset.mem_insert, Finset.mem_singleton, hP j]
      constructor
      · rintro (⟨-, h⟩ | ⟨-, h⟩)
        · exact Or.inl h
        · exact Or.inr h
      · rintro (h | h)
        · exact Or.inl ⟨ha, h⟩
        · exact Or.inr ⟨hb, h⟩
    rw [e, Finset.sum_pair hab, if_pos ha, if_pos hb]
  · have e : Finset.univ.filter P = {a} := by
      ext j; simp only [Finset.mem_filter, Finset.mem_univ, true_and, Finset.mem_singleton, hP j]
      constructor
      · rintro (⟨-, h⟩ | ⟨h, -⟩)
        · exact h
        · exact absurd h hb
      · intro h; exact Or.inl ⟨ha, h⟩
    rw [e, Finset.sum_singleton, if_pos ha, if_neg hb, add_zero]
  · have e : Finset.univ.filter P = {b} := by
      ext j; simp only [Finset.mem_filter, Finset.mem_univ, true_and, Finset.mem_singleton, hP j]
      constructor
      · rintro (⟨h, -⟩ | ⟨-, h⟩)
        · exact absurd h ha
        · exact h
      · intro h; exact Or.inr ⟨hb, h⟩
    rw [e, Finset.sum_singleton, if_neg ha, if_pos hb, zero_add]
  · have e : Finset.univ.filter P = ∅ := by
      ext j; simp only [Finset.mem_filter, Finset.mem_univ, true_and, hP j, Finset.notMem_empty, iff_false]
      rintro (⟨h, -⟩ | ⟨h, -⟩)
      · exact ha h
      · exact hb h
    rw [e, Finset.sum_empty, if_neg ha, if_neg hb, add_zero]

end Idealize.ShloMosaic
-- ==== Proof.ReferenceValue.lean ====
/-
  The reference's result is `G`: every sample times its gain.

  The reference frames each of the sixteen signals into 4095 frames of 1024 samples at hop 512 (frame `k`, position `s`
  is sample `512·k + s`), multiplies frame `k` by its window `frameWin w k` twice, and adds every product back onto a
  zero signal at the sample it came from. Four facts carry the proof.
  1. The index array. Entry `(k, s)` is the 32-bit word of `512·k + s`: the product and the sum do not wrap since
     `512·4094 + 1023 < 2^31`, the word is not negative, so the branch that would add the signal's length is not taken.
  2. The window matrix. Row `0` is the square root of the window plus its upper half shifted down over zeros, row `4094`
     the square root of the window plus its lower half shifted up under zeros, every row between the square root of the
     window: row `k` is `frameWin w k`.
  3. The framing reads sample `512·k + s` (the start index is inside the signal, so it is not clamped), hence update
     element `(b, k, s)` is that sample times `frameWin w k s` twice.
  4. Update element `(b', k, s)` lands on result element `(b, n)` exactly when `b' = b` and `512·k + s = n`; with
     `s < 1024` that has at most two solutions, `(n / 512, n % 512)` when `n / 512 ≤ 4094` and
     `(n / 512 - 1, n % 512 + 512)` when `1 ≤ n / 512`.
  So the result at `(b, n)` is zero plus at most two products of the one sample `x (b, n)` with a squared window value,
  which is the sample times `olaGain w n`, and that is `gain w n`.
-/
import proofs.«161885_j23596550324744_1_alg».proof.Proof.Gen.ReferenceIdeal.Read
import proofs.«161885_j23596550324744_1_alg».proof.Proof.OverlapAdd
import proofs.«161885_j23596550324744_1_alg».proof.Proof.LibScatterAdd
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.OverlapAdd

/-! ## 1. The index array: entry `(k, s)` is the word of `512·k + s` -/

/-- The index word of frame `k`, position `s`: neither the product nor the sum wraps. -/
theorem word_eq (k s : Nat) (hk : k < 4095) (hs : s < 1024) :
    IntOp.addi (IntOp.muli (BitVec.ofNat 32 k) 512#32) (BitVec.ofNat 32 s) = BitVec.ofNat 32 (512 * k + s) := by
  unfold IntOp.addi IntOp.muli
  apply BitVec.eq_of_toNat_eq
  simp only [BitVec.toNat_add, BitVec.toNat_mul, BitVec.toNat_ofNat]
  omega

/-- Read signed, that word is `512·k + s`: it is below `2^31`. -/
theorem word_toInt (k s : Nat) (hk : k < 4095) (hs : s < 1024) :
    (BitVec.ofNat 32 (512 * k + s)).toInt = ((512 * k + s : Nat) : Int) := by
  rw [BitVec.toInt_eq_toNat_cond]
  simp only [BitVec.toNat_ofNat]
  have : (512 * k + s) % 2 ^ 32 = 512 * k + s := by omega
  rw [this]
  split
  · rfl
  · omega

/-- The word is not negative: its signed comparison with zero is the bit `0`. -/
theorem word_not_neg (k s : Nat) (hk : k < 4095) (hs : s < 1024) :
    IntOp.cmpi .slt (BitVec.ofNat 32 (512 * k + s)) 0#32 = 0#1 := by
  unfold IntOp.cmpi
  have h : (BitVec.ofNat 32 (512 * k + s)).slt 0#32 = false := by
    rw [BitVec.slt_eq_decide, word_toInt k s hk hs, BitVec.toInt_zero]
    exact decide_eq_false (by omega)
  simp only [h]
  rfl

/-- The sum `512·k + s` of the two broadcast counters, as a word. -/
theorem v22_apply (i : S4095x1024.Idx) :
    val_main_v22 (F := Ideal) i = BitVec.ofNat 32 (512 * (i 0).val + (i 1).val) := by
  rw [val_main_v22_apply, val_main_v20_apply, val_main_v21_apply, val_main_v17_apply, val_main_v19_apply,
    val_main_v15_apply, val_main_v16_apply, val_main_v18_apply, val_main_v14_apply, val_main_c_apply]
  exact word_eq _ _ (i 0).isLt (i 1).isLt

/-- The index the overlap-add uses: the sum itself, the negative branch not taken. -/
theorem v41_apply (i : S4095x1024.Idx) :
    val_main_v41 (F := Ideal) i = BitVec.ofNat 32 (512 * (i 0).val + (i 1).val) := by
  rw [val_main_v41_apply, val_main_v38_apply, val_main_v37_apply, val_main_c_3_apply, v22_apply,
    word_not_neg _ _ (i 0).isLt (i 1).isLt, select_zero]

/-- The index the framing uses: the same. -/
theorem v27_apply (i : S4095x1024.Idx) :
    val_main_v27 (F := Ideal) i = BitVec.ofNat 32 (512 * (i 0).val + (i 1).val) := by
  rw [val_main_v27_apply, val_main_v24_apply, val_main_v23_apply, val_main_c_0_apply, v22_apply,
    word_not_neg _ _ (i 0).isLt (i 1).isLt, select_zero]

theorem v42_apply (i : S4095x1024x1.Idx) :
    val_main_v42 (F := Ideal) i = BitVec.ofNat 32 (512 * (i 0).val + (i 1).val) := by
  rw [val_main_v42_apply, v41_apply]

theorem v28_apply (i : S4095x1024x1.Idx) :
    val_main_v28 (F := Ideal) i = BitVec.ofNat 32 (512 * (i 0).val + (i 1).val) := by
  rw [val_main_v28_apply, v27_apply]

/-! ## 2. The window matrix: row `k` is frame `k`'s window -/

/-- The window's upper half shifted down, then zeros. -/
theorem v2_apply (x1 : (⟨S1024, .f32⟩ : BufTy).Contents (Elt Ideal)) (i : S1024.Idx) :
    val_main_v2 (F := Ideal) x1 i = if (i 0).val < 512 then tap x1 ((i 0).val + 512) else 0 := by
  have hi : (i 0).val < 1024 := (i 0).isLt
  unfold val_main_v2
  by_cases h : (i 0).val < 512
  · rw [if_pos h]
    refine (concatenate_pair_apply_left 0 _ _ concatenates_S512_S512_S1024_d0 i rfl (ix1 ⟨(i 0).val, h⟩)
      (fun b => by match b with | ⟨0, _⟩ => rfl)).trans ?_
    rw [val_main_v1_apply]
    exact tap_eq x1 _ _ (by show 512 + (i 0).val = (i 0).val + 512; omega)
  · rw [if_neg h]
    refine (concatenate_pair_apply_right 0 _ _ concatenates_S512_S512_S1024_d0 i rfl rfl
      (ix1 ⟨(i 0).val - 512, by omega⟩)
      (fun b hb => by match b with | ⟨0, _⟩ => exact absurd rfl hb)
      (by show (i 0).val - 512 + 512 = (i 0).val; omega)).trans ?_
    rw [val_main_v0_apply, val_main_cst_apply]
    exact Ideal.ofBits_zero_f32

/-- Zeros, then the window's lower half shifted up. -/
theorem v5_apply (x1 : (⟨S1024, .f32⟩ : BufTy).Contents (Elt Ideal)) (i : S1024.Idx) :
    val_main_v5 (F := Ideal) x1 i = if (i 0).val < 512 then 0 else tap x1 ((i 0).val - 512) := by
  have hi : (i 0).val < 1024 := (i 0).isLt
  unfold val_main_v5
  by_cases h : (i 0).val < 512
  · rw [if_pos h]
    refine (concatenate_pair_apply_left 0 _ _ concatenates_S512_S512_S1024_d0 i rfl (ix1 ⟨(i 0).val, h⟩)
      (fun b => by match b with | ⟨0, _⟩ => rfl)).trans ?_
    rw [val_main_v0_apply, val_main_cst_apply]
    exact Ideal.ofBits_zero_f32
  · rw [if_neg h]
    refine (concatenate_pair_apply_right 0 _ _ concatenates_S512_S512_S1024_d0 i rfl rfl
      (ix1 ⟨(i 0).val - 512, by omega⟩)
      (fun b hb => by match b with | ⟨0, _⟩ => exact absurd rfl hb)
      (by show (i 0).val - 512 + 512 = (i 0).val; omega)).trans ?_
    rw [val_main_v4_apply]
    exact tap_eq x1 _ _ rfl

/-- Row `k` of the window matrix is frame `k`'s window: the first row, the last row, the 4093 rows between. -/
theorem v13_apply (x1 : (⟨S1024, .f32⟩ : BufTy).Contents (Elt Ideal)) (i : S4095x1024.Idx) :
    val_main_v13 (F := Ideal) x1 i = frameWin x1 (i 0).val (i 1).val := by
  have h0 : (i 0).val < 4095 := (i 0).isLt
  have h1 : (i 1).val < 1024 := (i 1).isLt
  unfold val_main_v13 frameWin
  by_cases hk0 : (i 0).val = 0
  · rw [if_pos hk0]
    refine (concatenate_apply_piece 0 _ _ i 0 (by simp)
      S1x1024 (val_main_v10 (F := Ideal) x1) rfl rfl 0 rfl (ix2 ⟨0, Nat.one_pos⟩ (i 1))
      (fun b hb => by match b with | ⟨0, _⟩ => exact absurd rfl hb | ⟨1, _⟩ => rfl)
      (by show 0 + 0 = (i 0).val; omega)).trans ?_
    rw [val_main_v10_apply, val_main_v7_apply, val_main_v3_apply, v2_apply]
    unfold preWin
    rw [tap_eq x1 (idx_main_v10 (ix2 ⟨0, Nat.one_pos⟩ (i 1))) (i 1).val rfl]
    rfl
  · rw [if_neg hk0]
    by_cases hk1 : (i 0).val = 4094
    · rw [if_pos hk1]
      refine (concatenate_apply_piece 0 _ _ i 2 (by simp)
        S1x1024 (val_main_v12 (F := Ideal) x1) rfl rfl 4094 rfl (ix2 ⟨0, Nat.one_pos⟩ (i 1))
        (fun b hb => by match b with | ⟨0, _⟩ => exact absurd rfl hb | ⟨1, _⟩ => rfl)
        (by show 4094 + 0 = (i 0).val; omega)).trans ?_
      rw [val_main_v12_apply, val_main_v9_apply, val_main_v6_apply, v5_apply]
      unfold postWin
      rw [tap_eq x1 (idx_main_v12 (ix2 ⟨0, Nat.one_pos⟩ (i 1))) (i 1).val rfl]
      rfl
    · rw [if_neg hk1]
      refine (concatenate_apply_piece 0 _ _ i 1 (by simp)
        S4093x1024 (val_main_v11 (F := Ideal) x1) rfl rfl 1 rfl (ix2 ⟨(i 0).val - 1, by omega⟩ (i 1))
        (fun b hb => by match b with | ⟨0, _⟩ => exact absurd rfl hb | ⟨1, _⟩ => rfl)
        (by show 1 + ((i 0).val - 1) = (i 0).val; omega)).trans ?_
      rw [val_main_v11_apply, val_main_v8_apply]
      unfold midWin
      rw [tap_eq x1 (idx_main_v11 (ix2 ⟨(i 0).val - 1, by omega⟩ (i 1))) (i 1).val rfl]
      rfl

/-! ## 3. and 4. The framing's and the overlap-add's dimension numbers, evaluated -/

/-- The overlap-add's dimension numbers: signal axis kept as the window axis, sample axis addressed by the index. -/
abbrev scD := scatter_S16x2097152_S4095x1024x1_S16x4095x1024_0_1_1_2
/-- The framing's dimension numbers: signal axis copied whole, sample axis addressed by the index, one sample a slice. -/
abbrev gaD := gather_S16x2097152_S4095x1024x1_S16x4095x1024_0_1_n_n_1_2_161

/-- The index-array position `[k, s, 0]` that update or frame element `(b, k, s)` reads its start from. -/
abbrev ksIdx (j : S16x4095x1024.Idx) : S4095x1024x1.Idx := fun a => match a with
  | ⟨0, _⟩ => ⟨(j 1).val, (j 1).isLt⟩
  | ⟨1, _⟩ => ⟨(j 2).val, (j 2).isLt⟩
  | ⟨2, _⟩ => ⟨0, Nat.one_pos⟩

/-- Sample `512·k + s` of signal `b`, as an index of the signal array. -/
abbrev smp (j : S16x4095x1024.Idx) : S16x2097152.Idx := fun a => match a with
  | ⟨0, _⟩ => ⟨(j 0).val, (j 0).isLt⟩
  | ⟨1, _⟩ => ⟨512 * (j 1).val + (j 2).val, by
      have h1 : (j 1).val < 4095 := (j 1).isLt
      have h2 : (j 2).val < 1024 := (j 2).isLt
      show 512 * (j 1).val + (j 2).val < 2097152
      omega⟩

/-- Update index `(b, k, s)`. -/
abbrev frameIdx (b : Fin 16) (k s : Nat) (hk : k < 4095) (hs : s < 1024) : S16x4095x1024.Idx := fun a => match a with
  | ⟨0, _⟩ => b
  | ⟨1, _⟩ => ⟨k, hk⟩
  | ⟨2, _⟩ => ⟨s, hs⟩

theorem sc_window0 (j : S16x4095x1024.Idx) : scD.window j 0 = (j 0).val := rfl
theorem sc_window1 (j : S16x4095x1024.Idx) : scD.window j 1 = 0 := rfl
theorem sc_start0 {w : Nat} (j : S16x4095x1024.Idx) (idx : IVec S4095x1024x1 w) : scD.start j idx 0 = 0 := rfl

theorem sc_siIdx (j : S16x4095x1024.Idx) (c : Fin scD.scatterDimsToOperandDims.length) :
    scD.siIdx j c = ksIdx j := by
  funext b; refine Fin.ext ?_
  match b with
  | ⟨0, _⟩ => rfl
  | ⟨1, _⟩ => rfl
  | ⟨2, _⟩ => exact Nat.lt_one_iff.mp (by have := c.isLt; exact this)

/-- On the sample axis an update's window starts at `512·k + s`. -/
theorem sc_start1 (j : S16x4095x1024.Idx) :
    scD.start j (val_main_v42 (F := Ideal)) 1 = ((512 * (j 1).val + (j 2).val : Nat) : Int) := by
  unfold ScatterDims.start
  rw [dif_pos (show (1 : Fin S16x2097152.rank) ∈ scD.scatterDimsToOperandDims from List.mem_singleton.mpr rfl),
    sc_siIdx, v42_apply]
  exact word_toInt _ _ (j 1).isLt (j 2).isLt

/-- Update element `(b', k, s)` is added to result element `(b, n)` exactly when `b' = b` and `512·k + s = n`. -/
theorem scatter_lands (j : S16x4095x1024.Idx) (i : S16x2097152.Idx) :
    scD.resultIdx? j (val_main_v42 (F := Ideal)) = some i
      ↔ (j 0).val = (i 0).val ∧ 512 * (j 1).val + (j 2).val = (i 1).val := by
  rw [ScatterDims.resultIdx?_eq_some_iff]
  constructor
  · intro h
    have h0 := h 0
    have h1 := h 1
    rw [sc_start0, sc_window0] at h0
    rw [sc_start1, sc_window1] at h1
    constructor <;> omega
  · rintro ⟨h0, h1⟩ a
    match a with
    | ⟨0, _⟩ =>
      show scD.start j _ 0 + (scD.window j 0 : Int) = ((i 0).val : Int)
      rw [sc_start0, sc_window0]; omega
    | ⟨1, _⟩ =>
      show scD.start j _ 1 + (scD.window j 1 : Int) = ((i 1).val : Int)
      rw [sc_start1, sc_window1]; omega

theorem ga_siIdx (j : S16x4095x1024.Idx) (c : Fin gaD.startIndexMap.length) :
    gaD.siIdx j c = ksIdx j := by
  funext b; refine Fin.ext ?_
  match b with
  | ⟨0, _⟩ => rfl
  | ⟨1, _⟩ => rfl
  | ⟨2, _⟩ => exact Nat.lt_one_iff.mp (by have := c.isLt; exact this)

theorem ga_start0 {w : Nat} (j : S16x4095x1024.Idx) (idx : IVec S4095x1024x1 w) : gaD.start j idx 0 = 0 := rfl
theorem ga_batch (j : S16x4095x1024.Idx) (a : Fin S16x2097152.rank) : gaD.batchCoord j a = 0 :=
  GatherDims.batchCoord_eq_zero _ _ _ List.not_mem_nil
theorem ga_off0 (j : S16x4095x1024.Idx) : gaD.offCoord j 0 = (j 0).val := rfl
theorem ga_off1 (j : S16x4095x1024.Idx) : gaD.offCoord j 1 = 0 := rfl

/-- On the sample axis a frame element's slice starts at `512·k + s`: at most `2097151`, so not clamped. -/
theorem ga_start1 (j : S16x4095x1024.Idx) :
    gaD.start j (val_main_v28 (F := Ideal)) 1 = 512 * (j 1).val + (j 2).val := by
  have h1 : (j 1).val < 4095 := (j 1).isLt
  have h2 : (j 2).val < 1024 := (j 2).isLt
  unfold GatherDims.start
  rw [dif_pos (show (1 : Fin S16x2097152.rank) ∈ gaD.startIndexMap from List.mem_singleton.mpr rfl),
    ga_siIdx, v28_apply]
  show min (BitVec.ofNat 32 (512 * (j 1).val + (j 2).val)).toInt.toNat (2097152 - 1) = _
  rw [word_toInt _ _ h1 h2, Int.toNat_natCast]
  omega

/-- Frame `k`, position `s` of signal `b` reads sample `512·k + s` of that signal. -/
theorem ga_operandIdx (j : S16x4095x1024.Idx) :
    gaD.operandIdx j (val_main_v28 (F := Ideal)) = smp j := by
  funext a; refine Fin.ext ?_
  match a with
  | ⟨0, _⟩ =>
    show gaD.start j _ 0 + gaD.batchCoord j 0 + gaD.offCoord j 0 = (j 0).val
    rw [ga_start0, ga_batch, ga_off0]; omega
  | ⟨1, _⟩ =>
    show gaD.start j _ 1 + gaD.batchCoord j 1 + gaD.offCoord j 1 = 512 * (j 1).val + (j 2).val
    rw [ga_start1, ga_batch, ga_off1]; omega

/-- The framed signal. -/
theorem v29_apply (x0 : (⟨S16x2097152, .f32⟩ : BufTy).Contents (Elt Ideal)) (j : S16x4095x1024.Idx) :
    val_main_v29 (F := Ideal) x0 j = x0 (smp j) := by
  unfold val_main_v29 Host.gather
  exact congrArg x0 (ga_operandIdx j)

/-- An update element: the sample, windowed twice by its frame's window. -/
theorem v36_apply (x0 : (⟨S16x2097152, .f32⟩ : BufTy).Contents (Elt Ideal))
    (x1 : (⟨S1024, .f32⟩ : BufTy).Contents (Elt Ideal)) (j : S16x4095x1024.Idx) :
    val_main_v36 (F := Ideal) x0 x1 j
      = x0 (smp j) * frameWin x1 (j 1).val (j 2).val * frameWin x1 (j 1).val (j 2).val := by
  rw [val_main_v36_apply, val_main_v32_apply, v29_apply, val_main_v31_apply, val_main_v30_apply, val_main_v35_apply,
    val_main_v34_apply, v13_apply]
  rfl

/-! ## The result -/

/-- THE REFERENCE'S RESULT: every sample times its gain. At `(b, n)` the updates that land are those of frame `n / 512`
    at `n % 512` (when that frame exists) and of frame `n / 512 - 1` at `n % 512 + 512` (when `n / 512 ≥ 1`); each is
    the sample `x (b, n)` times a squared window value, and the two squares sum to the gain. -/
theorem result_eq (x0 : (⟨S16x2097152, .f32⟩ : BufTy).Contents (Elt Ideal))
    (x1 : (⟨S1024, .f32⟩ : BufTy).Contents (Elt Ideal)) :
    Cert.ReferenceIdeal.Read.val_main_v43 (F := Ideal) x0 x1 = Cert.OverlapAdd.G x0 x1 := by
  funext i
  show val_main_v43 (F := Ideal) x0 x1 i = x0 i * gain x1 (i 1).val
  have hn : (i 1).val < 2097152 := (i 1).isLt
  unfold val_main_v43 Host.scatterAdd
  rw [Ideal.hostScatterAdd_def]
  unfold Ideal.hostScatterAdd
  generalize hn' : (i 1).val = n at hn ⊢
  have hab : frameIdx (i 0) (min (n / 512) 4094) (n % 512) (by omega) (by omega)
      ≠ frameIdx (i 0) (n / 512 - 1) (n % 512 + 512) (by omega) (by omega) := by
    intro h
    have h2 := congrArg (fun f : S16x4095x1024.Idx => (f 2).val) h
    change n % 512 = n % 512 + 512 at h2
    omega
  have hP : ∀ j : S16x4095x1024.Idx, scD.resultIdx? j (val_main_v42 (F := Ideal)) = some i
      ↔ (n / 512 ≤ 4094 ∧ j = frameIdx (i 0) (min (n / 512) 4094) (n % 512) (by omega) (by omega))
        ∨ (1 ≤ n / 512 ∧ j = frameIdx (i 0) (n / 512 - 1) (n % 512 + 512) (by omega) (by omega)) := by
    intro j
    have j1 : (j 1).val < 4095 := (j 1).isLt
    have j2 : (j 2).val < 1024 := (j 2).isLt
    rw [scatter_lands, hn']
    constructor
    · rintro ⟨h0, h1⟩
      by_cases hs : (j 2).val < 512
      · left
        refine ⟨by omega, ?_⟩
        funext a; refine Fin.ext ?_
        match a with
        | ⟨0, _⟩ => exact h0
        | ⟨1, _⟩ => show (j 1).val = min (n / 512) 4094; omega
        | ⟨2, _⟩ => show (j 2).val = n % 512; omega
      · right
        refine ⟨by omega, ?_⟩
        funext a; refine Fin.ext ?_
        match a with
        | ⟨0, _⟩ => exact h0
        | ⟨1, _⟩ => show (j 1).val = n / 512 - 1; omega
        | ⟨2, _⟩ => show (j 2).val = n % 512 + 512; omega
    · rintro (⟨hc, rfl⟩ | ⟨hc, rfl⟩)
      · exact ⟨rfl, by show 512 * min (n / 512) 4094 + n % 512 = n; omega⟩
      · exact ⟨rfl, by show 512 * (n / 512 - 1) + (n % 512 + 512) = n; omega⟩
  rw [sum_filter_two _ (val_main_v36 (F := Ideal) x0 x1) _ _ (n / 512 ≤ 4094) (1 ≤ n / 512) hab hP]
  have ea : (if n / 512 ≤ 4094 then val_main_v36 (F := Ideal) x0 x1
        (frameIdx (i 0) (min (n / 512) 4094) (n % 512) (by omega) (by omega)) else 0)
      = (if n / 512 ≤ 4094 then x0 i * frameWin x1 (n / 512) (n % 512) * frameWin x1 (n / 512) (n % 512) else 0) := by
    by_cases h : n / 512 ≤ 4094
    · rw [if_pos h, if_pos h, v36_apply]
      have e1 : smp (frameIdx (i 0) (min (n / 512) 4094) (n % 512) (by omega) (by omega)) = i := by
        funext a; refine Fin.ext ?_
        match a with
        | ⟨0, _⟩ => rfl
        | ⟨1, _⟩ => show 512 * min (n / 512) 4094 + n % 512 = (i 1).val; omega
      have e2 : min (n / 512) 4094 = n / 512 := by omega
      rw [e1]
      show x0 i * frameWin x1 (min (n / 512) 4094) (n % 512) * frameWin x1 (min (n / 512) 4094) (n % 512) = _
      rw [e2]
    · rw [if_neg h, if_neg h]
  have eb : (if 1 ≤ n / 512 then val_main_v36 (F := Ideal) x0 x1
        (frameIdx (i 0) (n / 512 - 1) (n % 512 + 512) (by omega) (by omega)) else 0)
      = (if 1 ≤ n / 512 then x0 i * frameWin x1 (n / 512 - 1) (n % 512 + 512) * frameWin x1 (n / 512 - 1) (n % 512 + 512)
          else 0) := by
    by_cases h : 1 ≤ n / 512
    · rw [if_pos h, if_pos h, v36_apply]
      have e1 : smp (frameIdx (i 0) (n / 512 - 1) (n % 512 + 512) (by omega) (by omega)) = i := by
        funext a; refine Fin.ext ?_
        match a with
        | ⟨0, _⟩ => rfl
        | ⟨1, _⟩ => show 512 * (n / 512 - 1) + (n % 512 + 512) = (i 1).val; omega
      rw [e1]
    · rw [if_neg h, if_neg h]
  rw [ea, eb, val_main_v33_apply, val_main_cst_2_apply]
  have hz : FloatOps.ofBits (F := Ideal) .f32 0x00000000#32 = (0 : EReal) := Ideal.ofBits_zero_f32
  rw [hz, overlap_add_two, gain_eq_olaGain x1 n hn]
  rfl

end Cert.ReferenceIdeal.RefValue

end
-- ==== Proof.lean ====
/-
  A Pallas kernel that multiplies sixteen signals of 2097152 samples by one gain per sample position computes the
  windowed framing and overlap-add of its reference, as extended reals.

  The reference cuts each signal into 4095 frames of 1024 samples at hop 512, multiplies frame `k` by its window (the
  first and last frames' windows are edge-corrected, all are square roots), multiplies by the same window again and adds
  every frame back at its position onto zeros. A sample position `n` lies in at most two frames — frame `n / 512` at
  offset `n % 512` and frame `n / 512 - 1` at offset `n % 512 + 512` — and receives from each only its own sample,
  windowed twice. So the result at `n` is the sample times the sum of at most two squared window values. The kernel
  program builds exactly that sum per position on the host (five stretches: the first half frame, the second, the 4092
  interior half frames, the last two) and multiplies the signals by it in one region of sixteen grid points.
  The two sides meet in `Cert.OverlapAdd.G`. The law between them is that a sum of two products with one common factor
  is the product with the sum; on the extended reals this holds because the other factors are squares, hence never
  negative, so no input needs to be finite for it.

  The three frames: each kernel program runs to its end with its arguments unchanged (`Cert.Kernel.Run.frame`,
  `Cert.KernelIdeal.Run.frame`), and the reference's run leaves them unchanged too. The idealization rewrote no operation.
-/
import proofs.«161885_j23596550324744_1_alg».proof.Defs
import proofs.«161885_j23596550324744_1_alg».proof.Proof.Gen.Kernel
import proofs.«161885_j23596550324744_1_alg».proof.Proof.Gen.KernelIdeal
import proofs.«161885_j23596550324744_1_alg».proof.Proof.Gen.ReferenceIdeal
import proofs.«161885_j23596550324744_1_alg».proof.Proof.Gen.Pre_finite_inputs
import proofs.«161885_j23596550324744_1_alg».proof.Proof.Gen.ReferenceIdeal.Run
import proofs.«161885_j23596550324744_1_alg».proof.Proof.Gen.ReferenceIdeal.Read
import proofs.«161885_j23596550324744_1_alg».proof.Proof.OverlapAdd
import proofs.«161885_j23596550324744_1_alg».proof.Proof.KernelRun
import proofs.«161885_j23596550324744_1_alg».proof.Proof.KernelIdealRun
import proofs.«161885_j23596550324744_1_alg».proof.Proof.KernelIdealProduct
import proofs.«161885_j23596550324744_1_alg».proof.Proof.GainArray
import proofs.«161885_j23596550324744_1_alg».proof.Proof.ReferenceValue

noncomputable section

namespace Cert.Proof

open Idealize.ShloMosaic Idealize.ShloMosaic.TcCoe Idealize.SL.Sem Idealize.ShloMosaic.ValueIdx

theorem frame_kernel : Cert.frame_Kernel := fun m ρ _ => Cert.Kernel.Run.frame m ρ

theorem frame_kernelIdeal : Cert.frame_KernelIdeal := fun m ρ _ => Cert.KernelIdeal.Run.frame m ρ

/-- The reference is host operations only: its run ends with the arguments as launched. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The signals times the host-built gain row is every sample times its gain. -/
theorem product_gainArray (x : Cert.OverlapAdd.Sig) (w : Cert.OverlapAdd.Win) :
    Cert.KernelIdeal.Product.product x (Cert.KernelIdeal.GainArray.gainArray (F := Ideal) w) = Cert.OverlapAdd.G x w := by
  funext i
  obtain ⟨p, n, rfl⟩ : ∃ (p : Fin 16) (n : Fin 2097152), i = ix2 p n := ⟨i 0, i 1, eq_ix2 i⟩
  show x (ix2 p n) * Cert.KernelIdeal.GainArray.gainArray (F := Ideal) w (ix2 (0 : Fin 1) n) = x (ix2 p n) * Cert.OverlapAdd.gain w n.val
  rw [Cert.KernelIdeal.GainArray.gainArray_apply]

/-- Both idealized programs end with `G` of the signals and the window. -/
theorem algebraic : Cert.algebraic_KernelIdeal_ReferenceIdeal := by
  intro m ρ m' ρ' _ hagree
  refine ⟨fun c => Cert.OverlapAdd.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩) (Cert.KernelIdeal.Product.run m ρ)
    have e := Cert.KernelIdeal.GainArray.entry_eq m c
    show Cert.KernelIdeal.Product.product _ (StableHlo.after Cert.KernelIdeal.Gen.hostOps0 (fun b => m (c, b)) Cert.KernelIdeal.main_v28) = _
    rw [e]
    exact product_gainArray _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v43_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
